-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S50000x96 .f32) (main_arg1 : IVec S2x800000 32) (main_arg2 : FVec F S96x96 .f32) (main_arg3 : FVec F S96 .f32) (main_arg4 : FVec F S96x96 .f32) (main_arg5 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x96 : Shape := ⟨2, ![5000, 96]⟩
abbrev S850000x96 : Shape := ⟨2, ![850000, 96]⟩
abbrev S1x96 : Shape := ⟨2, ![1, 96]⟩

abbrev nBuf : Space → Nat
  | .hbm => 85
  | .vmem => 11
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x96, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x96, .f32⟩
  | .hbm, ⟨57, _⟩ => ⟨S850000x1, .f32⟩
  | .hbm, ⟨58, _⟩ => ⟨S850000x96, .f32⟩
  | .hbm, ⟨59, _⟩ => ⟨S850000x96, .f32⟩
  | .hbm, ⟨60, _⟩ => ⟨S_, .f32⟩
  | .hbm, ⟨61, _⟩ => ⟨S50000x96, .f32⟩
  | .hbm, ⟨62, _⟩ => ⟨S850000x1, .i32⟩
  | .hbm, ⟨63, _⟩ => ⟨S50000x96, .f32⟩
  | .hbm, ⟨64, _⟩ => ⟨S1x96, .f32⟩
  | .hbm, ⟨65, _⟩ => ⟨S50000x96, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x96, .f32⟩
  | .hbm, ⟨75, _⟩ => ⟨S850000x1, .f32⟩
  | .hbm, ⟨76, _⟩ => ⟨S850000x96, .f32⟩
  | .hbm, ⟨77, _⟩ => ⟨S850000x96, .f32⟩
  | .hbm, ⟨78, _⟩ => ⟨S_, .f32⟩
  | .hbm, ⟨79, _⟩ => ⟨S50000x96, .f32⟩
  | .hbm, ⟨80, _⟩ => ⟨S850000x1, .i32⟩
  | .hbm, ⟨81, _⟩ => ⟨S50000x96, .f32⟩
  | .hbm, ⟨82, _⟩ => ⟨S1x96, .f32⟩
  | .hbm, ⟨83, _⟩ => ⟨S50000x96, .f32⟩
  | .hbm, ⟨84, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S1x96, .f32⟩
  | .local _ .vmem, ⟨8, _⟩ => ⟨S96x96, .f32⟩
  | .local _ .vmem, ⟨9, _⟩ => ⟨S5000x96, .f32⟩
  | .local _ .vmem, ⟨10, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x96_S96x96_S5000x96_1_0_0_1_n_n_wf : DotDims.WF S5000x96 S96x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩

abbrev nBuf : Space → Nat
  | .hbm => 127
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x96, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x96, .f32⟩
  | .hbm, ⟨57, _⟩ => ⟨S850000x1, .f32⟩
  | .hbm, ⟨58, _⟩ => ⟨S850000x96, .f32⟩
  | .hbm, ⟨59, _⟩ => ⟨S850000x96, .f32⟩
  | .hbm, ⟨60, _⟩ => ⟨S_, .f32⟩
  | .hbm, ⟨61, _⟩ => ⟨S50000x96, .f32⟩
  | .hbm, ⟨62, _⟩ => ⟨S850000x1, .i32⟩
  | .hbm, ⟨63, _⟩ => ⟨S50000x96, .f32⟩
  | .hbm, ⟨64, _⟩ => ⟨S1x96, .f32⟩
  | .hbm, ⟨65, _⟩ => ⟨S50000x96, .f32⟩
  | .hbm, ⟨66, _⟩ => ⟨S50000x96, .f32⟩
  | .hbm, ⟨67, _⟩ => ⟨S_, .f32⟩
  | .hbm, ⟨68, _⟩ => ⟨S50000x96, .f32⟩
  | .hbm, ⟨69, _⟩ => ⟨S50000x96, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S850000, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000, .f32⟩
  | .hbm, ⟨106, _⟩ => ⟨S850000, .f32⟩
  | .hbm, ⟨107, _⟩ => ⟨S50000x96, .f32⟩
  | .hbm, ⟨108, _⟩ => ⟨S_, .i32⟩
  | .hbm, ⟨109, _⟩ => ⟨S850000, .i32⟩
  | .hbm, ⟨110, _⟩ => ⟨S850000, .i1⟩
  | .hbm, ⟨111, _⟩ => ⟨S_, .i32⟩
  | .hbm, ⟨112, _⟩ => ⟨S850000, .i32⟩
  | .hbm, ⟨113, _⟩ => ⟨S850000, .i32⟩
  | .hbm, ⟨114, _⟩ => ⟨S850000, .i32⟩
  | .hbm, ⟨115, _⟩ => ⟨S850000x1, .i32⟩
  | .hbm, ⟨116, _⟩ => ⟨S850000x96, .f32⟩
  | .hbm, ⟨117, _⟩ => ⟨S850000x1, .f32⟩
  | .hbm, ⟨118, _⟩ => ⟨S850000x96, .f32⟩
  | .hbm, ⟨119, _⟩ => ⟨S850000x96, .f32⟩
  | .hbm, ⟨120, _⟩ => ⟨S_, .f32⟩
  | .hbm, ⟨121, _⟩ => ⟨S50000x96, .f32⟩
  | .hbm, ⟨122, _⟩ => ⟨S850000x1, .i32⟩
  | .hbm, ⟨123, _⟩ => ⟨S50000x96, .f32⟩
  | .hbm, ⟨124, _⟩ => ⟨S1x96, .f32⟩
  | .hbm, ⟨125, _⟩ => ⟨S50000x96, .f32⟩
  | .hbm, ⟨126, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x96_S96x96_S50000x96_1_0_0_1_n_n_wf : DotDims.WF S50000x96 S96x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

class Facts : Prop extends Facts₀ where

variable [Facts]
-- ==== Proof.KRun.lean ====
/-
  The kernel program's run with its result named. The program is seven segments: three stretches of host operations,
  the first dense stage, a stretch of host operations (the first aggregation and the bias row), the second dense stage,
  and a last stretch (the second aggregation and the output bias). Every weakly fair execution ends, and the final
  memory holds in each buffer the last boundary's contents: the fold of the last stretch over what the second dense
  stage left. Here that is read at the result buffer as well as at the six arguments.
-/
import proofs.«148150_j31774168056026_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the six arguments end as launched. -/
theorem run_result : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.Graph.lean ====
/-
  The sparse half of a graph convolution, as functions of whole arrays. From the edge list e : [2, 800000] (row 0 the
  sources, row 1 the targets) both programs build the same things with the same host operations:
  the endpoint lists with one self loop per node appended (850000 entries each); the in-degree of every node, counted by
  adding a one at each target; its inverse square root where the degree is positive and zero elsewhere; the weight of
  an edge, the product of that quantity at its two endpoints (a negative endpoint number first shifted up by the number of
  nodes, as array indexing does); and the aggregation of a feature table: every edge carries its source's row, scaled by
  the edge's weight, to its target, where the rows that arrive are added up. The functions below are those operations
  composed; no program is mentioned.
-/
import proofs.«148150_j31774168056026_1_alg».proof.KernelIdeal
import Idealize.ShloMosaic.PureOps.Ideal

noncomputable section

namespace Cert.Graph

open Idealize.ShloMosaic Cert.KernelIdeal
open Cert.KernelIdeal.Facts₀

variable [Cert.KernelIdeal.Facts]

/-- One row of the edge list (k = 0 the sources, k = 1 the targets) as a flat list of 800000 node numbers. -/
def endpoints0 (e : IVec S2x800000 32) : IVec S800000 32 :=
  shapeCast S800000 (extractStridedSlice S1x800000 ![0, 0] e slices_S2x800000_S1x800000_0_0) shapeCasts_S1x800000_S800000
def endpoints1 (e : IVec S2x800000 32) : IVec S800000 32 :=
  shapeCast S800000 (extractStridedSlice S1x800000 ![1, 0] e slices_S2x800000_S1x800000_1_0) shapeCasts_S1x800000_S800000

/-- A self loop per node appended: the node numbers 0 … 49999 after the 800000 given ones. -/
def withLoops (a : IVec S800000 32) : IVec S850000 32 :=
  concatenate S850000 0 [⟨S800000, a⟩, ⟨S50000, iotaInDim S50000 32 0⟩] concatenates_S800000_S50000_S850000_d0

/-- A negative node number counts from the end: 50000 is added to it. -/
def wrap (x : IVec S850000 32) : IVec S850000 32 :=
  select (cmpi .slt x (broadcastInDim S850000 ![] bcast_S_S850000 (constantI S_ 32 0#32)))
    (addi x (broadcastInDim S850000 ![] bcast_S_S850000 (constantI S_ 32 50000#32))) x

/-- As a column of indices. -/
def column (x : IVec S850000 32) : IVec S850000x1 32 := broadcastInDim S850000x1 ![0] bcast_S850000_S850000x1_0 x

/-- The all-ones edge weights. -/
def ones : FVec Ideal S850000 .f32 := broadcastInDim S850000 ![] bcast_S_S850000 (constant S_ .f32 0x3F800000#32)

/-- The in-degree: a one added at each target. -/
def degree (c : IVec S850000 32) : FVec Ideal S50000 .f32 :=
  Host.scatterAdd scatter_S50000_S850000x1_S850000_n_0_0_1
    (broadcastInDim S50000 ![] bcast_S_S50000 (constant S_ .f32 0x00000000#32)) (column c) ones

/-- Where the degree is positive. -/
def positive (c : IVec S850000 32) : IVec S50000 1 :=
  cmpf .ogt (degree c) (broadcastInDim S50000 ![] bcast_S_S50000 (constant S_ .f32 0x00000000#32))

/-- A choice between a per-node quantity and a constant spread over the nodes. -/
def choose (p : IVec S50000 1) (a : FVec Ideal S50000 .f32) (z : FVec Ideal S_ .f32) : FVec Ideal S50000 .f32 :=
  select p a (broadcastInDim S50000 ![] bcast_S_S50000 (id z))

/-- The degree's inverse square root where it is positive, zero elsewhere. -/
def invSqrtDegree (c : IVec S850000 32) : FVec Ideal S50000 .f32 :=
  choose (positive c) (Host.rsqrt (degree c)) (constant S_ .f32 0x00000000#32)

/-- An edge's weight from a per-node quantity d and a given weight w: d at its source times w times d at its target. -/
def edgeWeight (d : FVec Ideal S50000 .f32) (w : FVec Ideal S850000 .f32) (r c : IVec S850000 32) : FVec Ideal S850000 .f32 :=
  mulf (mulf (Host.gather gather_S50000_S850000x1_S850000_n_0_n_n_0_1_1 d (column (wrap r))) w)
    (Host.gather gather_S50000_S850000x1_S850000_n_0_n_n_0_1_1 d (column (wrap c)))

/-- The aggregation: each edge carries its source's row of the table, scaled by the edge's weight, to its target. -/
def aggregate (feat : FVec Ideal S50000x96 .f32) (r c : IVec S850000 32) (nrm : FVec Ideal S850000 .f32) :
    FVec Ideal S50000x96 .f32 :=
  Host.scatterAdd scatter_S50000x96_S850000x1_S850000x96_1_0_0_1
    (broadcastInDim S50000x96 ![] bcast_S_S50000x96 (constant S_ .f32 0x00000000#32)) (column c)
    (mulf (Host.gather gather_S50000x96_S850000x1_S850000x96_1_0_n_n_0_1_196 feat (column (wrap r)))
      (broadcastInDim S850000x96 ![0, 1] bcast_S850000x1_S850000x96_0_1
        (broadcastInDim S850000x1 ![0] bcast_S850000_S850000x1_0 nrm)))

/-- The positive part of a table, the zero written as the f32 word 0 spread over it. -/
def relu (a : FVec Ideal S50000x96 .f32) : FVec Ideal S50000x96 .f32 :=
  maximumf a (broadcastInDim S50000x96 ![] bcast_S_S50000x96 (constant S_ .f32 0x00000000#32))

/-- A bias added to every row. -/
def addBias (a : FVec Ideal S50000x96 .f32) (b : FVec Ideal S96 .f32) : FVec Ideal S50000x96 .f32 :=
  addf a (broadcastInDim S50000x96 ![0, 1] bcast_S1x96_S50000x96_0_1 (broadcastInDim S1x96 ![1] bcast_S96_S1x96_1 b))

end Cert.Graph

end
-- ==== Proof.KHost.lean ====
/-
  The kernel program's host operations, stretch by stretch, read as the graph functions: for ANY contents V of the
  buffers when a stretch begins, what the stretch leaves in the buffers that later stages read. The stretches are the
  ones between the two dense stages: the endpoint lists and their self loops; the degrees; the choice between the
  inverse square root and zero; the edge weights; the first aggregation and the bias row; the second aggregation and
  the output bias. A buffer a stretch does not write keeps its contents.
-/
import proofs.«148150_j31774168056026_1_alg».proof.Proof.Gen.KernelIdeal.Launch
import proofs.«148150_j31774168056026_1_alg».proof.Proof.Graph
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Cert.Graph

variable (V : Valuation τ sig (Elt Ideal))

/-- The first stretch in two parts: the seven operations that make the endpoint lists, then the rest. -/
abbrev lists : List (HloOp τ sig (Elt Ideal)) := (hostOps0 (F := Ideal)).take 7
abbrev degrees : List (HloOp τ sig (Elt Ideal)) := (hostOps0 (F := Ideal)).drop 7

theorem first_stretch : StableHlo.after (hostOps0 (F := Ideal)) V = StableHlo.after degrees (StableHlo.after lists V) := rfl

/-! ## The endpoint lists -/

theorem lists_sources : StableHlo.after lists V (Proc.devRef .tc main_v5) = withLoops (endpoints0 (V (Proc.devRef .tc main_arg1))) := by
  simp only [lists, List.take_succ_cons, List.take_zero]
  after_results
  rfl

theorem lists_targets : StableHlo.after lists V (Proc.devRef .tc main_v6) = withLoops (endpoints1 (V (Proc.devRef .tc main_arg1))) := by
  simp only [lists, List.take_succ_cons, List.take_zero]
  after_results
  rfl

/-! ## The degrees -/

set_option maxHeartbeats 1000000 in
theorem degrees_positive : StableHlo.after degrees V (Proc.devRef .tc main_v12) = positive (V (Proc.devRef .tc main_v6)) := by
  simp only [degrees, List.drop_succ_cons, List.drop_zero]
  after_results_simp
  rfl

set_option maxHeartbeats 1000000 in
theorem degrees_rsqrt : StableHlo.after degrees V (Proc.devRef .tc main_v13) = Host.rsqrt (degree (V (Proc.devRef .tc main_v6))) := by
  simp only [degrees, List.drop_succ_cons, List.drop_zero]
  after_results_simp
  rfl

theorem degrees_zero : StableHlo.after degrees V (Proc.devRef .tc main_cst_2) = (constant S_ .f32 0x00000000#32 : FVec Ideal S_ .f32) := by
  simp only [degrees, List.drop_succ_cons, List.drop_zero]
  after_results_simp

theorem degrees_ones : StableHlo.after degrees V (Proc.devRef .tc main_v7) = ones := by
  simp only [degrees, List.drop_succ_cons, List.drop_zero]
  after_results_simp
  rfl

/-! ## The choice -/

theorem choice : StableHlo.after (hostOps0_1 (F := Ideal)) V (Proc.devRef .tc main_v14)
    = choose (V (Proc.devRef .tc main_v12)) (V (Proc.devRef .tc main_v13)) (V (Proc.devRef .tc main_cst_2)) := by
  after_results_simp
  rfl

/-! ## The edge weights -/

set_option maxHeartbeats 1000000 in
theorem weights : StableHlo.after (hostOps0_2 (F := Ideal)) V (Proc.devRef .tc main_v30)
    = edgeWeight (V (Proc.devRef .tc main_v14)) (V (Proc.devRef .tc main_v7)) (V (Proc.devRef .tc main_v5)) (V (Proc.devRef .tc main_v6)) := by
  after_results_simp
  rfl

/-! ## The first aggregation and the bias row -/

set_option maxHeartbeats 1000000 in
theorem aggregation1 : StableHlo.after (hostOps1 (F := Ideal)) V (Proc.devRef .tc main_v44)
    = aggregate (V (Proc.devRef .tc main_v31)) (V (Proc.devRef .tc main_v5)) (V (Proc.devRef .tc main_v6)) (V (Proc.devRef .tc main_v30)) := by
  after_results_simp
  rfl

theorem bias_row : StableHlo.after (hostOps1 (F := Ideal)) V (Proc.devRef .tc main_v45)
    = shapeCast S1x96 (V (Proc.devRef .tc main_arg3)) Facts₀.shapeCasts_S96_S1x96 := by
  after_results_simp
  rfl

/-! ## The second aggregation and the output bias -/

set_option maxHeartbeats 1000000 in
theorem output : StableHlo.after (hostOps2 (F := Ideal)) V (Proc.devRef .tc main_v62)
    = addBias (aggregate (V (Proc.devRef .tc main_v46)) (V (Proc.devRef .tc main_v5)) (V (Proc.devRef .tc main_v6)) (V (Proc.devRef .tc main_v30))) (V (Proc.devRef .tc main_arg5)) := by
  after_results_simp
  rfl

end Cert.KernelIdeal.HostValue

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Spec.lean ====
/-
  The two dense stages of a two-layer graph convolution, as functions of whole arrays on the extended reals.
  A node table x : [50000, 96] against a weight w : [96, 96] gives, at node p and feature q, the sum over the
  inner position k of x (p, k) · w (k, q); the hidden layer adds a bias b (q) to every row and clips at zero.
  Nothing here depends on how the rows are tiled or on which program computes them.
-/
import Idealize.ShloMosaic.Lib.ValueIdx
import Idealize.ShloMosaic.PureOps.Ideal

open scoped BigOperators

noncomputable section

namespace Cert.Spec

open Idealize.ShloMosaic Idealize.ShloMosaic.ValueIdx

/-- Node features: 50000 nodes, 96 features. -/
abbrev Nodes : Shape := ⟨2, ![50000, 96]⟩
/-- A layer's weight. -/
abbrev Weight : Shape := ⟨2, ![96, 96]⟩
/-- A layer's bias. -/
abbrev Bias : Shape := ⟨1, ![96]⟩

/-- The dense layer x · w: entry (p, q) is the sum over k of x (p, k) · w (k, q). -/
def dense (x : FVec Ideal Nodes .f32) (w : FVec Ideal Weight .f32) : FVec Ideal Nodes .f32 :=
  fun i => ∑ k : Fin 96, x (ix2 (n0 := 50000) (n1 := 96) (i 0) k) * w (ix2 (n0 := 96) (n1 := 96) k (i 1))

/-- Bias, then the positive part: entry (p, q) is max (a (p, q) + b q, 0), the zero written as the f32 word 0. -/
def biasRelu (a : FVec Ideal Nodes .f32) (b : FVec Ideal Bias .f32) : FVec Ideal Nodes .f32 :=
  fun i => max (a i + b (ix1 (n := 96) (i 1))) (Ideal.ofBits .f32 0x00000000#32)

/-- A bias kept as a one-row matrix, read as a vector: entry q is the row's entry (0, q). -/
def rowOf (b : FVec Ideal ⟨2, ![1, 96]⟩ .f32) : FVec Ideal Bias .f32 :=
  fun i => b (ix2 (n0 := 1) (n1 := 96) 0 (i 0))

theorem rowOf_ix1 (b : FVec Ideal ⟨2, ![1, 96]⟩ .f32) (q : Fin 96) : rowOf b (ix1 q) = b (ix2 0 q) := rfl

theorem dense_ix2 (x : FVec Ideal Nodes .f32) (w : FVec Ideal Weight .f32) (p : Fin 50000) (q : Fin 96) :
    dense x w (ix2 p q) = ∑ k : Fin 96, x (ix2 p k) * w (ix2 k q) := rfl

theorem biasRelu_ix2 (a : FVec Ideal Nodes .f32) (b : FVec Ideal Bias .f32) (p : Fin 50000) (q : Fin 96) :
    biasRelu a b (ix2 p q) = max (a (ix2 p q) + b (ix1 q)) (Ideal.ofBits .f32 0x00000000#32) := rfl

end Cert.Spec

end
-- ==== Proof.Region0.lean ====
/-
  The first dense stage as the row-tiled kernel computes it. The node table is cut into ten blocks of 5000 rows;
  at block t the body multiplies rows 5000·t … 5000·t + 4999 of x by the whole weight and writes the product back
  to the same rows of the output. Row r of the output is therefore written exactly once, by block r / 5000, and
  holds the sum over k of x (r, k) · w (k, q): the output array is the dense layer of the two arrays the call
  was entered with, whatever those are.
-/
import proofs.«148150_j31774168056026_1_alg».proof.Proof.Gen.KernelIdeal.Frame
import proofs.«148150_j31774168056026_1_alg».proof.Proof.LibMatmul
import proofs.«148150_j31774168056026_1_alg».proof.Proof.Spec
import Idealize.ShloMosaic.Lib.Pipeline.Value
import Idealize.ShloMosaic.Lib.ValueIdx
import Idealize.ShloMosaic.Lib.ValueLayout

set_option maxRecDepth 16384

open scoped BigOperators

noncomputable section

namespace Cert.KernelIdeal.Dense0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One tile's product at row p, column q: the row of the left tile against the column of the weight. -/
theorem tile_product (x0 : Vec Ideal S5000x96 .f32) (x1 : Vec Ideal S96x96 .f32) (p : Fin 5000) (q : Fin 96) :
    k0_pay1 (F := Ideal) x0 x1 (ix2 p q) = ∑ k : Fin 96, x0 (ix2 p k) * x1 (ix2 k q) := by
  unfold k0_pay1
  exact matmul_zero_ix2 dot_S5000x96_S96x96_S5000x96_1_0_0_1_n_n rfl rfl rfl rfl rfl rfl none _ _ p q

/-- A tile whose rows are rows of X (row j of the tile is row i of X) and whose weight is W computes row i of X · W. -/
theorem tile_is_dense (X : FVec Ideal Spec.Nodes .f32) (W : FVec Ideal Spec.Weight .f32)
    (x0 : Vec Ideal S5000x96 .f32) (x1 : Vec Ideal S96x96 .f32) (p : Fin 5000) (q : Fin 96) (r : Fin 50000)
    (h0 : ∀ k : Fin 96, x0 (ix2 p k) = X (ix2 r k)) (h1 : ∀ k : Fin 96, x1 (ix2 k q) = W (ix2 k q)) :
    k0_pay1 (F := Ideal) x0 x1 (ix2 p q) = Spec.dense X W (ix2 r q) := by
  rw [tile_product, Spec.dense_ix2]
  exact Finset.sum_congr rfl fun k _ => by rw [h0 k, h1 k]

/-- The same with the tile's and the table's positions given as indices: row (j 0) of the tile is row (i 0) of X, and
    the columns agree. -/
theorem tile_rows (X : FVec Ideal Spec.Nodes .f32) (W : FVec Ideal Spec.Weight .f32)
    (x0 : Vec Ideal S5000x96 .f32) (x1 : Vec Ideal S96x96 .f32) (j : S5000x96.Idx) (i : Spec.Nodes.Idx)
    (h0 : ∀ k : Fin 96, x0 (ix2 (j 0) k) = X (ix2 (i 0) k)) (h1 : ∀ k : Fin 96, x1 (ix2 k (j 1)) = W (ix2 k (i 1))) :
    k0_pay1 (F := Ideal) x0 x1 j = Spec.dense X W i := by
  obtain ⟨p, q, rfl⟩ : ∃ (p : Fin 5000) (q : Fin 96), j = ix2 p q := ⟨j 0, j 1, eq_ix2 j⟩
  obtain ⟨r, q', rfl⟩ : ∃ (r : Fin 50000) (q' : Fin 96), i = ix2 r q' := ⟨i 0, i 1, eq_ix2 i⟩
  have hq : ∀ k : Fin 96, x1 (ix2 k q) = W (ix2 k q') := h1
  rw [tile_product, Spec.dense_ix2]
  exact Finset.sum_congr rfl fun k _ => by rw [show x0 (ix2 p k) = X (ix2 r k) from h0 k, hq k]

/-- Where the blocks sit: the input rows move with the output rows, block t at rows 5000·t; the weight and the
    column axis do not move. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What block t writes back is block t of the dense layer of the arrays the call was entered with. -/
theorem flushed_eq (c : Dev nD) (t : Fin cfg0.N) :
    (dat0 V c).flushed 2 t = ((cfg0.win 2).blk t).view.read (Elt Ideal) (Spec.dense (V c main_arg0) (V c main_arg2)) := by
  show (cfg0.win 2).cut (grid0.coords t) ((dat0 V c).after 2 t) = _
  rw [after0_2]
  unfold out0_2
  rw [View.canon_unit_zero origin]
  simp only [View.ld_unit_zero (S := S5000x96) origin, View.ld_unit_zero (S := S96x96) origin]
  obtain ⟨e0, e1, e2, e3, e4, e5⟩ := block_positions t
  funext j
  refine tile_rows (V c main_arg0) (V c main_arg2) (iblk0 V c 0 t) (iblk0 V c 1 t) j (((cfg0.win 2).blk t).view.emb j) ?_ ?_
  · intro k
    show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 96 + 1 * k.val = k.val; omega
  · intro k
    show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 96 + 1 * k.val = k.val; omega
    | ⟨1, _⟩ => show win0_1.index t (1 : Fin 2) * 96 + 1 * (j 1).val = win0_2.index t (1 : Fin 2) * 96 + 1 * (j 1).val; omega

/-- An index of the output is in block t iff each coordinate is in the block's range on its axis. -/
theorem mem_block (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v31).slice (win0_2.rect t)).set ↔ _
  rw [View.set_slice_whole, Rect.mem_set_unit]
  exact Iff.rfl

/-- Row r of the output lies in block r / 5000, and every block is written back. -/
theorem covered (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  have hN : cfg0.N = 10 := N_0
  have ht : (i 0).val / 5000 < cfg0.N := by omega
  obtain ⟨e0, e1, e2, e3, e4, e5⟩ := block_positions ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 96 ≤ (i 1).val ∧ (i 1).val < win0_2.index ⟨(i 0).val / 5000, ht⟩ (1 : Fin 2) * 96 + 96
    rw [e5]; omega

/-- The output array after the call is the dense layer of the two arrays the call was entered with. -/
theorem out_eq (c : Dev nD) : (dat0 V c).arrAt 2 cfg0.N = Spec.dense (V c main_arg0) (V c main_arg2) :=
  (dat0 V c).arrAt_eq_of_cover 2 (Spec.dense (V c main_arg0) (V c main_arg2)) (fun t _ => flushed_eq V c t) covered

end Cert.KernelIdeal.Dense0

end
-- ==== Proof.Region1.lean ====
/-
  The second dense stage as the row-tiled kernel computes it, with the bias and the clipping at zero fused in front of
  the product. At block t the body takes rows 5000·t … 5000·t + 4999 of the aggregated table a, adds the bias row to
  each, keeps the positive part, multiplies by the whole weight and writes the product back to the same rows. Row r of
  the output is written once, by block r / 5000, and holds the sum over k of max (a (r, k) + b k, 0) · w (k, q): the
  output array is the dense layer of the clipped table, for whatever arrays the call was entered with.
-/
import proofs.«148150_j31774168056026_1_alg».proof.Proof.Gen.KernelIdeal.Frame
import proofs.«148150_j31774168056026_1_alg».proof.Proof.LibMatmul
import proofs.«148150_j31774168056026_1_alg».proof.Proof.Spec
import Idealize.ShloMosaic.Lib.Pipeline.Value
import Idealize.ShloMosaic.Lib.ValueIdx
import Idealize.ShloMosaic.Lib.ValueLayout

set_option maxRecDepth 16384

open scoped BigOperators

noncomputable section

namespace Cert.KernelIdeal.Dense1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The zero the body clips at is the f32 word 0 read on the extended reals. -/
theorem zero_word (b : BitVec 32) : Scalar.ofBits (F := Ideal) .f32 b = Ideal.ofBits .f32 b := rfl

/-- The clipped, biased tile at (p, k): the bias row is spread over the rows of the tile. -/
theorem clipped_at (x0 : Vec Ideal S5000x96 .f32) (x1 : Vec Ideal S1x96 .f32) (p : Fin 5000) (k : Fin 96) :
    (maximumf (addf (shapeCast S5000x96 x0 shapeCasts_S5000x96_S5000x96)
        (broadcastTo S5000x96 (shapeCast S1x96 x1 shapeCasts_S1x96_S1x96) broadcasts_S1x96_S5000x96))
      (broadcast S5000x96 (Scalar.ofBits (F := Ideal) .f32 0x00000000#32)) : FVec Ideal S5000x96 .f32) (ix2 p k)
      = max (x0 (ix2 p k) + x1 (ix2 0 k)) (Ideal.ofBits .f32 0x00000000#32) := by
  rw [maximumf_apply, addf_apply, broadcast_apply, zero_word, shapeCast_self, shapeCast_self,
    broadcastTo_apply x1 broadcasts_S1x96_S5000x96 (ix2 p k) (ix2 0 k) (fun a => by match a with | ⟨0, _⟩ => rfl | ⟨1, _⟩ => rfl)]

/-- One tile's product at row p, column q. -/
theorem tile_product (x0 : Vec Ideal S5000x96 .f32) (x1 : Vec Ideal S1x96 .f32) (x2 : Vec Ideal S96x96 .f32) (p : Fin 5000) (q : Fin 96) :
    k1_pay1 (F := Ideal) x0 x1 x2 (ix2 p q)
      = ∑ k : Fin 96, max (x0 (ix2 p k) + x1 (ix2 0 k)) (Ideal.ofBits .f32 0x00000000#32) * x2 (ix2 k q) := by
  unfold k1_pay1
  refine (matmul_zero_ix2 dot_S5000x96_S96x96_S5000x96_1_0_0_1_n_n rfl rfl rfl rfl rfl rfl none _ _ p q).trans ?_
  refine Finset.sum_congr rfl fun k _ => ?_
  rw [truncf_apply, truncf_apply, clipped_at]

/-- A tile whose rows are rows of a (row (j 0) of the tile is row (i 0) of a), whose bias row is b and whose weight is W
    computes row (i 0) of the dense layer of the clipped, biased table. -/
theorem tile_rows (A : FVec Ideal Spec.Nodes .f32) (B : FVec Ideal ⟨2, ![1, 96]⟩ .f32) (W : FVec Ideal Spec.Weight .f32)
    (x0 : Vec Ideal S5000x96 .f32) (x1 : Vec Ideal S1x96 .f32) (x2 : Vec Ideal S96x96 .f32) (j : S5000x96.Idx) (i : Spec.Nodes.Idx)
    (h0 : ∀ k : Fin 96, x0 (ix2 (j 0) k) = A (ix2 (i 0) k)) (hb : ∀ k : Fin 96, x1 (ix2 0 k) = B (ix2 0 k))
    (h2 : ∀ k : Fin 96, x2 (ix2 k (j 1)) = W (ix2 k (i 1))) :
    k1_pay1 (F := Ideal) x0 x1 x2 j = Spec.dense (Spec.biasRelu A (Spec.rowOf B)) W i := by
  obtain ⟨p, q, rfl⟩ : ∃ (p : Fin 5000) (q : Fin 96), j = ix2 p q := ⟨j 0, j 1, eq_ix2 j⟩
  obtain ⟨r, q', rfl⟩ : ∃ (r : Fin 50000) (q' : Fin 96), i = ix2 r q' := ⟨i 0, i 1, eq_ix2 i⟩
  have hq : ∀ k : Fin 96, x2 (ix2 k q) = W (ix2 k q') := h2
  rw [tile_product, Spec.dense_ix2]
  refine Finset.sum_congr rfl fun k _ => ?_
  rw [Spec.biasRelu_ix2, Spec.rowOf_ix1, show x0 (ix2 p k) = A (ix2 r k) from h0 k, hb k, hq k]

/-- Where the blocks sit: the table's rows move with the output rows, block t at rows 5000·t; the bias row, the
    weight and the column axis do not move. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What block t writes back is block t of the dense layer of the clipped table. -/
theorem flushed_eq (c : Dev nD) (t : Fin cfg1.N) :
    (dat1 V c).flushed 3 t = ((cfg1.win 3).blk t).view.read (Elt Ideal)
      (Spec.dense (Spec.biasRelu (V c main_v44) (Spec.rowOf (V c main_v45))) (V c main_arg4)) := by
  show (cfg1.win 3).cut (grid1.coords t) ((dat1 V c).after 3 t) = _
  rw [after1_3]
  unfold out1_3
  rw [View.canon_unit_zero origin]
  simp only [View.ld_unit_zero (S := S5000x96) origin, View.ld_unit_zero (S := S1x96) origin, View.ld_unit_zero (S := S96x96) origin]
  obtain ⟨e0, e1, e2, e3, e4, e5, e6, e7⟩ := block_positions t
  funext j
  refine tile_rows (V c main_v44) (V c main_v45) (V c main_arg4) (iblk1 V c 0 t) (iblk1 V c 1 t) (iblk1 V c 2 t) j (((cfg1.win 3).blk t).view.emb j) ?_ ?_ ?_
  · intro k
    show V c main_v44 (((cfg1.win 0).blk t).view.emb (ix2 (j 0) k)) = V c main_v44 (ix2 ((((cfg1.win 3).blk t).view.emb j) 0) k)
    refine congrArg (V c main_v44) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 96 + 1 * k.val = k.val; omega
  · intro k
    show V c main_v45 (((cfg1.win 1).blk t).view.emb (ix2 0 k)) = V c main_v45 (ix2 0 k)
    refine congrArg (V c main_v45) (funext fun a => Fin.ext ?_)
    match a with
    | ⟨0, _⟩ => show win1_1.index t (0 : Fin 2) * 1 + 1 * 0 = 0; omega
    | ⟨1, _⟩ => show win1_1.index t (1 : Fin 2) * 96 + 1 * k.val = k.val; omega
  · intro k
    show V c main_arg4 (((cfg1.win 2).blk t).view.emb (ix2 k (j 1))) = V c main_arg4 (ix2 k ((((cfg1.win 3).blk t).view.emb j) 1))
    refine congrArg (V c main_arg4) (funext fun a => Fin.ext ?_)
    match a with
    | ⟨0, _⟩ => show win1_2.index t (0 : Fin 2) * 96 + 1 * k.val = k.val; omega
    | ⟨1, _⟩ => show win1_2.index t (1 : Fin 2) * 96 + 1 * (j 1).val = win1_3.index t (1 : Fin 2) * 96 + 1 * (j 1).val; omega

/-- An index of the output is in block t iff each coordinate is in the block's range on its axis. -/
theorem mem_block (t : Fin cfg1.N) (i : S50000x96.Idx) :
    i ∈ ((cfg1.win 3).blk t).view.set ↔ ∀ a : Fin 2, win1_3.index t a * S5000x96.size a ≤ (i a).val ∧ (i a).val < win1_3.index t a * S5000x96.size a + S5000x96.size a := by
  show i ∈ ((View.whole main_v46).slice (win1_3.rect t)).set ↔ _
  rw [View.set_slice_whole, Rect.mem_set_unit]
  exact Iff.rfl

/-- Row r of the output lies in block r / 5000, and every block is written back. -/
theorem covered (i : S50000x96.Idx) : ∃ t : Fin cfg1.N, (cfg1.win 3).flush t = true ∧ i ∈ ((cfg1.win 3).blk t).view.set := by
  have hi0 : (i 0).val < 50000 := (i 0).isLt
  have hi1 : (i 1).val < 96 := (i 1).isLt
  have hN : cfg1.N = 10 := N_1
  have ht : (i 0).val / 5000 < cfg1.N := by omega
  obtain ⟨e0, e1, e2, e3, e4, e5, e6, e7⟩ := block_positions ⟨(i 0).val / 5000, ht⟩
  refine ⟨⟨(i 0).val / 5000, ht⟩, flush1_3 _, ?_⟩
  rw [mem_block]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 96 ≤ (i 1).val ∧ (i 1).val < win1_3.index ⟨(i 0).val / 5000, ht⟩ (1 : Fin 2) * 96 + 96
    rw [e7]; omega

/-- The output array after the call is the dense layer of the clipped, biased table. -/
theorem out_eq (c : Dev nD) : (dat1 V c).arrAt 3 cfg1.N
    = Spec.dense (Spec.biasRelu (V c main_v44) (Spec.rowOf (V c main_v45))) (V c main_arg4) :=
  (dat1 V c).arrAt_eq_of_cover 3 (Spec.dense (Spec.biasRelu (V c main_v44) (Spec.rowOf (V c main_v45))) (V c main_arg4))
    (fun t _ => flushed_eq V c t) covered

end Cert.KernelIdeal.Dense1

end
-- ==== Proof.Bridge.lean ====
/-
  Where the two programs spell one function differently. The reference's dense layer is the host's dot product
  contracting the table's feature axis against the weight's first axis: entry (p, q) is the sum over k of
  x (p, k) · w (k, q), the dense layer. Its hidden layer adds the bias spread over the rows and takes the maximum with a
  table of zeros: entry (p, q) is max (a (p, q) + b q, 0). And a bias vector reshaped to a one-row matrix and read back
  along that row is the vector.
-/
import proofs.«148150_j31774168056026_1_alg».proof.ReferenceIdeal
import proofs.«148150_j31774168056026_1_alg».proof.Proof.Spec
import proofs.«148150_j31774168056026_1_alg».proof.Proof.Graph
import proofs.«148150_j31774168056026_1_alg».proof.Proof.LibMatmul
import Idealize.ShloMosaic.Lib.Pipeline.Value
import Idealize.ShloMosaic.Lib.ValueIdx
import Idealize.ShloMosaic.Lib.ValueLayout

open scoped BigOperators

noncomputable section

namespace Cert.Bridge

open Idealize.ShloMosaic Idealize.ShloMosaic.ValueIdx

/-- The host's dot product of a node table and a weight is the dense layer. -/
theorem dot_is_dense [Cert.ReferenceIdeal.Facts] (X : FVec Ideal Spec.Nodes .f32) (W : FVec Ideal Spec.Weight .f32) :
    Host.dotGeneral Cert.ReferenceIdeal.dot_S50000x96_S96x96_S50000x96_1_0_0_1_n_n none X W = Spec.dense X W := by
  funext i
  obtain ⟨p, q, rfl⟩ : ∃ (p : Fin 50000) (q : Fin 96), i = ix2 p q := ⟨i 0, i 1, eq_ix2 i⟩
  simp only [Host.dotGeneral]
  rw [Spec.dense_ix2]
  exact dotGeneral_ix2 Cert.ReferenceIdeal.dot_S50000x96_S96x96_S50000x96_1_0_0_1_n_n rfl rfl rfl rfl rfl rfl _ _ X W p q

/-- The positive part of a table with a bias added to every row is the hidden layer's clipping. -/
theorem relu_addBias [Cert.KernelIdeal.Facts] (a : FVec Ideal Spec.Nodes .f32) (b : FVec Ideal Spec.Bias .f32) :
    Graph.relu (Graph.addBias a b) = Spec.biasRelu a b := by
  funext i
  obtain ⟨p, q, rfl⟩ : ∃ (p : Fin 50000) (q : Fin 96), i = ix2 p q := ⟨i 0, i 1, eq_ix2 i⟩
  unfold Graph.relu Graph.addBias
  rw [maximumf_apply, addf_apply, Spec.biasRelu_ix2,
    broadcastInDim_apply _ _ (constant (F := Ideal) Cert.KernelIdeal.S_ .f32 0x00000000#32) (ix2 p q) (fun a => a.elim0) (fun a => a.elim0),
    constant_apply,
    broadcastInDim_apply _ _ _ (ix2 p q) (ix2 (0 : Fin 1) q) (fun a => by match a with | ⟨0, _⟩ => rfl | ⟨1, _⟩ => rfl),
    broadcastInDim_apply _ _ b (ix2 (0 : Fin 1) q) (ix1 q) (fun a => by match a with | ⟨0, _⟩ => rfl)]

/-- A bias vector reshaped to one row, read back along the row. -/
theorem rowOf_reshape (b : FVec Ideal Spec.Bias .f32) (h : Spec.Bias.ShapeCasts ⟨2, ![1, 96]⟩) :
    Spec.rowOf (shapeCast ⟨2, ![1, 96]⟩ b h) = b := by
  funext i
  obtain ⟨q, rfl⟩ : ∃ q : Fin 96, i = ix1 q := ⟨i 0, eq_ix1 i⟩
  rw [Spec.rowOf_ix1]
  exact shapeCast_a_1a_apply b h 0 q

end Cert.Bridge

end
-- ==== Proof.Model.lean ====
/-
  The two-layer graph convolution as one function of the six arguments: node features x, edge list e, and each
  layer's weight and bias. With r and c the self-looped source and target lists of e and n the edge weights
  (the inverse square roots of the in-degrees at the two endpoints), a layer is: the dense product, then every edge
  carrying its source's row scaled by its weight to its target, then the bias; between the layers the positive part.
  Both programs are shown to compute this function.
-/
import proofs.«148150_j31774168056026_1_alg».proof.Proof.Spec
import proofs.«148150_j31774168056026_1_alg».proof.Proof.Graph

noncomputable section

namespace Cert.Model

open Idealize.ShloMosaic Cert.KernelIdeal Cert.Graph

variable [Cert.KernelIdeal.Facts]

/-- The network's output. -/
def out (x : FVec Ideal S50000x96 .f32) (e : IVec S2x800000 32) (w1 : FVec Ideal S96x96 .f32) (b1 : FVec Ideal S96 .f32)
    (w2 : FVec Ideal S96x96 .f32) (b2 : FVec Ideal S96 .f32) : FVec Ideal S50000x96 .f32 :=
  addBias (aggregate (Spec.dense (Spec.biasRelu (aggregate (Spec.dense x w1)
      (withLoops (endpoints0 e)) (withLoops (endpoints1 e))
      (edgeWeight (invSqrtDegree (withLoops (endpoints1 e))) ones (withLoops (endpoints0 e)) (withLoops (endpoints1 e)))) b1) w2)
    (withLoops (endpoints0 e)) (withLoops (endpoints1 e))
    (edgeWeight (invSqrtDegree (withLoops (endpoints1 e))) ones (withLoops (endpoints0 e)) (withLoops (endpoints1 e)))) b2

end Cert.Model

end
-- ==== Proof.KValue.lean ====
/-
  The kernel program's result as one function of its six arguments. The buffers are followed from boundary to boundary:
  the endpoint lists with their self loops r and c, the edge weights n (from the inverse square roots of the
  in-degrees), the first dense stage x · w1 (what the row-tiled kernel leaves: the dense layer of the arrays it was
  entered with), its aggregation over the edges, the second dense stage on the biased and clipped table, and its
  aggregation with the output bias. A buffer that a stretch does not write is carried along unchanged.
-/
import proofs.«148150_j31774168056026_1_alg».proof.Proof.Gen.KernelIdeal.Frame
import proofs.«148150_j31774168056026_1_alg».proof.Proof.KHost
import proofs.«148150_j31774168056026_1_alg».proof.Proof.Region0
import proofs.«148150_j31774168056026_1_alg».proof.Proof.Region1
import proofs.«148150_j31774168056026_1_alg».proof.Proof.Bridge
import proofs.«148150_j31774168056026_1_alg».proof.Proof.Model

set_option maxRecDepth 16384

noncomputable section

namespace Cert.KernelIdeal.Levels

open Cert.KernelIdeal Cert.KernelIdeal.Gen Idealize.ShloMosaic Idealize.ShloMosaic.TcCoe Idealize.SL.Sem Idealize.ShloMosaic.StableHlo
open Cert.Graph Cert.KernelIdeal.HostValue

variable (m : (ℓ : Loc nD τ sig) → Buf (Elt Ideal) ℓ) (ρ : Dev nD → PrngReg) (c : Dev nD)

/-- The contents of a buffer a stretch does not write: the fold walks over the stretch without touching it. -/
macro "carried" : tactic =>
  `(tactic| ((try simp only [degrees, lists, List.take_succ_cons, List.take_zero, List.drop_succ_cons, List.drop_zero]); after_results_simp))

/-- The self-looped sources and targets, and the edge weights, of the launch's edge list. -/
abbrev srcs : IVec S850000 32 := withLoops (endpoints0 (m ((c : Thread nD τ).loc main_arg1)))
abbrev tgts : IVec S850000 32 := withLoops (endpoints1 (m ((c : Thread nD τ).loc main_arg1)))
abbrev wts : FVec Ideal S850000 .f32 := edgeWeight (invSqrtDegree (tgts m c)) ones (srcs m c) (tgts m c)

/-! ## After the first stretch: the lists, the degrees -/

theorem l1_srcs : W1 m ρ c (Proc.devRef .tc main_v5) = srcs m c := by
  have h : W1 m ρ c (Proc.devRef .tc main_v5) = StableHlo.after lists (W0 m ρ c) (Proc.devRef .tc main_v5) := by
    show StableHlo.after degrees (StableHlo.after lists (W0 m ρ c)) (Proc.devRef .tc main_v5) = _
    generalize StableHlo.after lists (W0 m ρ c) = U
    carried
  exact h.trans (lists_sources (W0 m ρ c))
theorem l1_tgts : W1 m ρ c (Proc.devRef .tc main_v6) = tgts m c := by
  have h : W1 m ρ c (Proc.devRef .tc main_v6) = StableHlo.after lists (W0 m ρ c) (Proc.devRef .tc main_v6) := by
    show StableHlo.after degrees (StableHlo.after lists (W0 m ρ c)) (Proc.devRef .tc main_v6) = _
    generalize StableHlo.after lists (W0 m ρ c) = U
    carried
  exact h.trans (lists_targets (W0 m ρ c))
theorem l1_lists_tgts : StableHlo.after lists (W0 m ρ c) (Proc.devRef .tc main_v6) = tgts m c := lists_targets (W0 m ρ c)
theorem l1_ones : W1 m ρ c (Proc.devRef .tc main_v7) = ones := degrees_ones _
theorem l1_pos : W1 m ρ c (Proc.devRef .tc main_v12) = positive (tgts m c) :=
  (degrees_positive (StableHlo.after lists (W0 m ρ c))).trans (by rw [l1_lists_tgts])
theorem l1_rsqrt : W1 m ρ c (Proc.devRef .tc main_v13) = Host.rsqrt (degree (tgts m c)) :=
  (degrees_rsqrt (StableHlo.after lists (W0 m ρ c))).trans (by rw [l1_lists_tgts])
theorem l1_zero : W1 m ρ c (Proc.devRef .tc main_cst_2) = (constant S_ .f32 0x00000000#32 : FVec Ideal S_ .f32) := degrees_zero _
theorem l1_arg (b : Ref sig .tc) (hb : b = main_arg0 ∨ b = main_arg2 ∨ b = main_arg3 ∨ b = main_arg4 ∨ b = main_arg5) :
    W1 m ρ c (Proc.devRef .tc b) = m ((c : Thread nD τ).loc b) := by
  have h : W1 m ρ c (Proc.devRef .tc b) = W0 m ρ c (Proc.devRef .tc b) := by
    show StableHlo.after degrees (StableHlo.after lists (W0 m ρ c)) (Proc.devRef .tc b) = _
    generalize W0 m ρ c = U
    rcases hb with rfl | rfl | rfl | rfl | rfl <;> carried
  exact h

/-! ## After the choice -/

theorem l2_inv : W2 m ρ c (Proc.devRef .tc main_v14) = invSqrtDegree (tgts m c) :=
  (choice (W1 m ρ c)).trans (by rw [l1_pos, l1_rsqrt, l1_zero]; rfl)
theorem l2_keep (b : Ref sig .tc) (hb : b = main_v5 ∨ b = main_v6 ∨ b = main_v7 ∨ b = main_arg0 ∨ b = main_arg2 ∨ b = main_arg3 ∨ b = main_arg4 ∨ b = main_arg5) :
    W2 m ρ c (Proc.devRef .tc b) = W1 m ρ c (Proc.devRef .tc b) := by
  show StableHlo.after hostOps0_1 (W1 m ρ c) (Proc.devRef .tc b) = _
  generalize W1 m ρ c = U
  rcases hb with rfl | rfl | rfl | rfl | rfl | rfl | rfl | rfl <;> carried

/-! ## After the edge weights: the first dense stage's entry -/

theorem l3_wts : W3 m ρ c (Proc.devRef .tc main_v30) = wts m c :=
  (weights (W2 m ρ c)).trans (by
    rw [l2_inv, l2_keep m ρ c main_v7 (by simp), l2_keep m ρ c main_v5 (by simp), l2_keep m ρ c main_v6 (by simp), l1_ones, l1_srcs, l1_tgts])
theorem l3_keep (b : Ref sig .tc) (hb : b = main_v5 ∨ b = main_v6 ∨ b = main_arg0 ∨ b = main_arg2 ∨ b = main_arg3 ∨ b = main_arg4 ∨ b = main_arg5) :
    W3 m ρ c (Proc.devRef .tc b) = W2 m ρ c (Proc.devRef .tc b) := by
  show StableHlo.after hostOps0_2 (W2 m ρ c) (Proc.devRef .tc b) = _
  generalize W2 m ρ c = U
  rcases hb with rfl | rfl | rfl | rfl | rfl | rfl | rfl <;> carried
theorem l3_srcs : W3 m ρ c (Proc.devRef .tc main_v5) = srcs m c := by rw [l3_keep m ρ c main_v5 (by simp), l2_keep m ρ c main_v5 (by simp), l1_srcs]
theorem l3_tgts : W3 m ρ c (Proc.devRef .tc main_v6) = tgts m c := by rw [l3_keep m ρ c main_v6 (by simp), l2_keep m ρ c main_v6 (by simp), l1_tgts]
theorem l3_arg (b : Ref sig .tc) (hb : b = main_arg0 ∨ b = main_arg2 ∨ b = main_arg3 ∨ b = main_arg4 ∨ b = main_arg5) :
    W3 m ρ c (Proc.devRef .tc b) = m ((c : Thread nD τ).loc b) := by
  rw [l3_keep m ρ c b (by rcases hb with h | h | h | h | h <;> simp [h]), l2_keep m ρ c b (by rcases hb with h | h | h | h | h <;> simp [h]), l1_arg m ρ c b hb]

/-! ## After the first dense stage -/

theorem l4_dense : W4 m ρ c (Proc.devRef .tc main_v31)
    = Spec.dense (m ((c : Thread nD τ).loc main_arg0)) (m ((c : Thread nD τ).loc main_arg2)) := by
  have h := (W4_arr m ρ c 2).trans (Dense0.out_eq (V3 m ρ) c)
  rw [show V3 m ρ c main_arg0 = W3 m ρ c (Proc.devRef .tc main_arg0) from rfl, show V3 m ρ c main_arg2 = W3 m ρ c (Proc.devRef .tc main_arg2) from rfl,
    l3_arg m ρ c main_arg0 (by simp), l3_arg m ρ c main_arg2 (by simp)] at h
  exact h
theorem l4_keep (b : Ref sig .tc) (hb : ∀ w, Pipeline.arrRef spec0 w ≠ b) : W4 m ρ c (Proc.devRef .tc b) = W3 m ρ c (Proc.devRef .tc b) := W4_of_ne m ρ c b hb

theorem l4_srcs : W4 m ρ c (Proc.devRef .tc main_v5) = srcs m c := (l4_keep m ρ c main_v5 (by decide)).trans (l3_srcs m ρ c)
theorem l4_tgts : W4 m ρ c (Proc.devRef .tc main_v6) = tgts m c := (l4_keep m ρ c main_v6 (by decide)).trans (l3_tgts m ρ c)
theorem l4_wts : W4 m ρ c (Proc.devRef .tc main_v30) = wts m c := (l4_keep m ρ c main_v30 (by decide)).trans (l3_wts m ρ c)

/-! ## After the first aggregation: the second dense stage's entry -/

/-- The first layer before its bias: the dense stage aggregated over the edges. -/
abbrev layer1 : FVec Ideal S50000x96 .f32 :=
  aggregate (Spec.dense (m ((c : Thread nD τ).loc main_arg0)) (m ((c : Thread nD τ).loc main_arg2))) (srcs m c) (tgts m c) (wts m c)

theorem l5_agg : W5 m ρ c (Proc.devRef .tc main_v44) = layer1 m c :=
  (aggregation1 (W4 m ρ c)).trans (by rw [l4_dense, l4_srcs, l4_tgts, l4_wts])
theorem l5_bias : W5 m ρ c (Proc.devRef .tc main_v45)
    = shapeCast S1x96 (m ((c : Thread nD τ).loc main_arg3)) Facts₀.shapeCasts_S96_S1x96 :=
  (bias_row (W4 m ρ c)).trans (by rw [l4_keep m ρ c main_arg3 (by decide), l3_arg m ρ c main_arg3 (by simp)])
theorem l5_keep (b : Ref sig .tc) (hb : b = main_v5 ∨ b = main_v6 ∨ b = main_v30 ∨ b = main_arg4 ∨ b = main_arg5) :
    W5 m ρ c (Proc.devRef .tc b) = W4 m ρ c (Proc.devRef .tc b) := by
  show StableHlo.after hostOps1 (W4 m ρ c) (Proc.devRef .tc b) = _
  generalize W4 m ρ c = U
  rcases hb with rfl | rfl | rfl | rfl | rfl <;> carried
theorem l5_arg4 : W5 m ρ c (Proc.devRef .tc main_arg4) = m ((c : Thread nD τ).loc main_arg4) := by
  rw [l5_keep m ρ c main_arg4 (by simp), l4_keep m ρ c main_arg4 (by decide), l3_arg m ρ c main_arg4 (by simp)]

/-! ## After the second dense stage -/

theorem l6_dense : W6 m ρ c (Proc.devRef .tc main_v46)
    = Spec.dense (Spec.biasRelu (layer1 m c) (m ((c : Thread nD τ).loc main_arg3))) (m ((c : Thread nD τ).loc main_arg4)) := by
  have h := (W6_arr m ρ c 3).trans (Dense1.out_eq (V5 m ρ) c)
  rw [show V5 m ρ c main_v44 = W5 m ρ c (Proc.devRef .tc main_v44) from rfl,
    show V5 m ρ c main_v45 = W5 m ρ c (Proc.devRef .tc main_v45) from rfl,
    show V5 m ρ c main_arg4 = W5 m ρ c (Proc.devRef .tc main_arg4) from rfl,
    l5_agg, l5_bias, l5_arg4, Cert.Bridge.rowOf_reshape] at h
  exact h
theorem l6_keep (b : Ref sig .tc) (hb : ∀ w, Pipeline.arrRef spec1 w ≠ b) :
    W6 m ρ c (Proc.devRef .tc b) = W5 m ρ c (Proc.devRef .tc b) := W6_of_ne m ρ c b hb
theorem l6_srcs : W6 m ρ c (Proc.devRef .tc main_v5) = srcs m c := by
  rw [l6_keep m ρ c main_v5 (by decide), l5_keep m ρ c main_v5 (by simp), l4_srcs]
theorem l6_tgts : W6 m ρ c (Proc.devRef .tc main_v6) = tgts m c := by
  rw [l6_keep m ρ c main_v6 (by decide), l5_keep m ρ c main_v6 (by simp), l4_tgts]
theorem l6_wts : W6 m ρ c (Proc.devRef .tc main_v30) = wts m c := by
  rw [l6_keep m ρ c main_v30 (by decide), l5_keep m ρ c main_v30 (by simp), l4_wts]
theorem l6_arg5 : W6 m ρ c (Proc.devRef .tc main_arg5) = m ((c : Thread nD τ).loc main_arg5) := by
  rw [l6_keep m ρ c main_arg5 (by decide), l5_keep m ρ c main_arg5 (by simp), l4_keep m ρ c main_arg5 (by decide), l3_arg m ρ c main_arg5 (by simp)]

/-! ## The result -/

/-- The result buffer ends at the network's output of the six arguments. -/
theorem result_eq : W7 m ρ c (Proc.devRef .tc main_v62)
    = Cert.Model.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (output (W6 m ρ c)).trans (by rw [l6_dense, l6_srcs, l6_tgts, l6_wts, l6_arg5]; rfl)

end Cert.KernelIdeal.Levels

end
-- ==== Proof.RHost.lean ====
/-
  The reference program's host operations, part by part, read as the graph functions: for ANY contents V of the buffers
  when a part begins, what the part leaves in the buffers that later parts read. The parts, in order: the endpoint lists
  and their self loops; the degrees; the choice between the inverse square root and zero; the edge weights, the first
  product, the first aggregation and its bias; the positive part; the endpoint lists with their self loops again; the
  degrees again; the choice again; the edge weights, the second product, the second aggregation and its bias.
-/
import proofs.«148150_j31774168056026_1_alg».proof.Proof.RefRun
import proofs.«148150_j31774168056026_1_alg».proof.Proof.Gen.KernelIdeal
import proofs.«148150_j31774168056026_1_alg».proof.Proof.Graph
import Idealize.ShloMosaic.Lib.StableHlo.Run
import Idealize.ShloMosaic.PureOps.Ideal

set_option maxRecDepth 16384

noncomputable section

namespace Cert.ReferenceIdeal.HostValue

open Cert.ReferenceIdeal Cert.ReferenceIdeal.Gen Cert.ReferenceIdeal.RunP Idealize.ShloMosaic Idealize.ShloMosaic.TcCoe Idealize.SL.Sem Idealize.ShloMosaic.StableHlo
open Cert.Graph

variable (V : Valuation τ sig (Elt Ideal))

/-- The program's 121 operations in nine consecutive parts. -/
abbrev part1 : List (HloOp τ sig (Elt Ideal)) := (ops (F := Ideal)).take 7
abbrev part2 : List (HloOp τ sig (Elt Ideal)) := ((ops (F := Ideal)).drop 7).take 11
abbrev part3 : List (HloOp τ sig (Elt Ideal)) := ((ops (F := Ideal)).drop 18).take 3
abbrev part4 : List (HloOp τ sig (Elt Ideal)) := ((ops (F := Ideal)).drop 21).take 40
abbrev part5 : List (HloOp τ sig (Elt Ideal)) := ((ops (F := Ideal)).drop 61).take 3
abbrev part6 : List (HloOp τ sig (Elt Ideal)) := ((ops (F := Ideal)).drop 64).take 3
abbrev part7 : List (HloOp τ sig (Elt Ideal)) := ((ops (F := Ideal)).drop 67).take 11
abbrev part8 : List (HloOp τ sig (Elt Ideal)) := ((ops (F := Ideal)).drop 78).take 3
abbrev part9 : List (HloOp τ sig (Elt Ideal)) := (ops (F := Ideal)).drop 81

/-- The fold of the whole program is the fold of its parts, one after the other. -/
theorem parts : StableHlo.after (ops (F := Ideal)) V
    = StableHlo.after part9 (StableHlo.after part8 (StableHlo.after part7 (StableHlo.after part6 (StableHlo.after part5
        (StableHlo.after part4 (StableHlo.after part3 (StableHlo.after part2 (StableHlo.after part1 V)))))))) := rfl

/-! ## Part 1: the endpoint lists -/

theorem p1_src : StableHlo.after part1 V (Proc.devRef .tc main_v1) = endpoints0 (V (Proc.devRef .tc main_arg1)) := by
  simp only [part1, part2, part3, part4, part5, part6, part7, part8, part9, List.take_succ_cons, List.take_zero, List.drop_succ_cons, List.drop_zero]
  after_results
  rfl
theorem p1_dst : StableHlo.after part1 V (Proc.devRef .tc main_v3) = endpoints1 (V (Proc.devRef .tc main_arg1)) := by
  simp only [part1, part2, part3, part4, part5, part6, part7, part8, part9, List.take_succ_cons, List.take_zero, List.drop_succ_cons, List.drop_zero]
  after_results
  rfl
theorem p1_sources : StableHlo.after part1 V (Proc.devRef .tc main_v5) = withLoops (endpoints0 (V (Proc.devRef .tc main_arg1))) := by
  simp only [part1, part2, part3, part4, part5, part6, part7, part8, part9, List.take_succ_cons, List.take_zero, List.drop_succ_cons, List.drop_zero]
  after_results
  rfl
theorem p1_targets : StableHlo.after part1 V (Proc.devRef .tc main_v6) = withLoops (endpoints1 (V (Proc.devRef .tc main_arg1))) := by
  simp only [part1, part2, part3, part4, part5, part6, part7, part8, part9, List.take_succ_cons, List.take_zero, List.drop_succ_cons, List.drop_zero]
  after_results
  rfl

/-! ## Part 2: the degrees -/

set_option maxHeartbeats 1000000 in
theorem p2_positive : StableHlo.after part2 V (Proc.devRef .tc main_v12) = positive (V (Proc.devRef .tc main_v6)) := by
  simp only [part1, part2, part3, part4, part5, part6, part7, part8, part9, List.take_succ_cons, List.take_zero, List.drop_succ_cons, List.drop_zero]
  after_results_simp
  rfl
set_option maxHeartbeats 1000000 in
theorem p2_rsqrt : StableHlo.after part2 V (Proc.devRef .tc main_v13) = Host.rsqrt (degree (V (Proc.devRef .tc main_v6))) := by
  simp only [part1, part2, part3, part4, part5, part6, part7, part8, part9, List.take_succ_cons, List.take_zero, List.drop_succ_cons, List.drop_zero]
  after_results_simp
  rfl
theorem p2_zero : StableHlo.after part2 V (Proc.devRef .tc main_cst_2) = (constant S_ .f32 0x00000000#32 : FVec Ideal S_ .f32) := by
  simp only [part1, part2, part3, part4, part5, part6, part7, part8, part9, List.take_succ_cons, List.take_zero, List.drop_succ_cons, List.drop_zero]
  after_results_simp
theorem p2_ones : StableHlo.after part2 V (Proc.devRef .tc main_v7) = ones := by
  simp only [part1, part2, part3, part4, part5, part6, part7, part8, part9, List.take_succ_cons, List.take_zero, List.drop_succ_cons, List.drop_zero]
  after_results_simp
  rfl

/-! ## Part 3: the choice -/

theorem p3_choice : StableHlo.after part3 V (Proc.devRef .tc main_v14)
    = choose (V (Proc.devRef .tc main_v12)) (V (Proc.devRef .tc main_v13)) (V (Proc.devRef .tc main_cst_2)) := by
  simp only [part1, part2, part3, part4, part5, part6, part7, part8, part9, List.take_succ_cons, List.take_zero, List.drop_succ_cons, List.drop_zero]
  after_results_simp
  rfl

/-! ## Part 4: the weights, the first product, the first aggregation and its bias -/

set_option maxHeartbeats 4000000 in
theorem p4_layer : StableHlo.after part4 V (Proc.devRef .tc main_v47)
    = addBias (aggregate (Host.dotGeneral (φ₁ := .f32) (φ₂ := .f32) dot_S50000x96_S96x96_S50000x96_1_0_0_1_n_n none (V (Proc.devRef .tc main_arg0)) (V (Proc.devRef .tc main_arg2)))
        (V (Proc.devRef .tc main_v5)) (V (Proc.devRef .tc main_v6)) (edgeWeight (V (Proc.devRef .tc main_v14)) (V (Proc.devRef .tc main_v7)) (V (Proc.devRef .tc main_v5)) (V (Proc.devRef .tc main_v6))))
        (V (Proc.devRef .tc main_arg3)) := by
  simp only [part1, part2, part3, part4, part5, part6, part7, part8, part9, List.take_succ_cons, List.take_zero, List.drop_succ_cons, List.drop_zero]
  after_results_simp
  rfl

/-! ## Part 5: the positive part -/

theorem p5_relu : StableHlo.after part5 V (Proc.devRef .tc main_v48) = relu (V (Proc.devRef .tc main_v47)) := by
  simp only [part1, part2, part3, part4, part5, part6, part7, part8, part9, List.take_succ_cons, List.take_zero, List.drop_succ_cons, List.drop_zero]
  after_results_simp
  rfl

/-! ## Part 6: the endpoint lists with their self loops, again -/

theorem p6_sources : StableHlo.after part6 V (Proc.devRef .tc main_v50) = withLoops (V (Proc.devRef .tc main_v1)) := by
  simp only [part1, part2, part3, part4, part5, part6, part7, part8, part9, List.take_succ_cons, List.take_zero, List.drop_succ_cons, List.drop_zero]
  after_results
  rfl
theorem p6_targets : StableHlo.after part6 V (Proc.devRef .tc main_v51) = withLoops (V (Proc.devRef .tc main_v3)) := by
  simp only [part1, part2, part3, part4, part5, part6, part7, part8, part9, List.take_succ_cons, List.take_zero, List.drop_succ_cons, List.drop_zero]
  after_results
  rfl

/-! ## Part 7: the degrees, again -/

set_option maxHeartbeats 1000000 in
theorem p7_positive : StableHlo.after part7 V (Proc.devRef .tc main_v57) = positive (V (Proc.devRef .tc main_v51)) := by
  simp only [part1, part2, part3, part4, part5, part6, part7, part8, part9, List.take_succ_cons, List.take_zero, List.drop_succ_cons, List.drop_zero]
  after_results_simp
  rfl
set_option maxHeartbeats 1000000 in
theorem p7_rsqrt : StableHlo.after part7 V (Proc.devRef .tc main_v58) = Host.rsqrt (degree (V (Proc.devRef .tc main_v51))) := by
  simp only [part1, part2, part3, part4, part5, part6, part7, part8, part9, List.take_succ_cons, List.take_zero, List.drop_succ_cons, List.drop_zero]
  after_results_simp
  rfl
theorem p7_zero : StableHlo.after part7 V (Proc.devRef .tc main_cst_12) = (constant S_ .f32 0x00000000#32 : FVec Ideal S_ .f32) := by
  simp only [part1, part2, part3, part4, part5, part6, part7, part8, part9, List.take_succ_cons, List.take_zero, List.drop_succ_cons, List.drop_zero]
  after_results_simp
theorem p7_ones : StableHlo.after part7 V (Proc.devRef .tc main_v52) = ones := by
  simp only [part1, part2, part3, part4, part5, part6, part7, part8, part9, List.take_succ_cons, List.take_zero, List.drop_succ_cons, List.drop_zero]
  after_results_simp
  rfl

/-! ## Part 8: the choice, again -/

theorem p8_choice : StableHlo.after part8 V (Proc.devRef .tc main_v59)
    = choose (V (Proc.devRef .tc main_v57)) (V (Proc.devRef .tc main_v58)) (V (Proc.devRef .tc main_cst_12)) := by
  simp only [part1, part2, part3, part4, part5, part6, part7, part8, part9, List.take_succ_cons, List.take_zero, List.drop_succ_cons, List.drop_zero]
  after_results_simp
  rfl

/-! ## Part 9: the weights, the second product, the second aggregation and its bias -/

set_option maxHeartbeats 4000000 in
theorem p9_layer : StableHlo.after part9 V (Proc.devRef .tc main_v92)
    = addBias (aggregate (Host.dotGeneral (φ₁ := .f32) (φ₂ := .f32) dot_S50000x96_S96x96_S50000x96_1_0_0_1_n_n none (V (Proc.devRef .tc main_v48)) (V (Proc.devRef .tc main_arg4)))
        (V (Proc.devRef .tc main_v50)) (V (Proc.devRef .tc main_v51)) (edgeWeight (V (Proc.devRef .tc main_v59)) (V (Proc.devRef .tc main_v52)) (V (Proc.devRef .tc main_v50)) (V (Proc.devRef .tc main_v51))))
        (V (Proc.devRef .tc main_arg5)) := by
  simp only [part1, part2, part3, part4, part5, part6, part7, part8, part9, List.take_succ_cons, List.take_zero, List.drop_succ_cons, List.drop_zero]
  after_results_simp
  rfl

end Cert.ReferenceIdeal.HostValue

end
-- ==== Proof.RValue.lean ====
/-
  The reference program's result as one function of its six arguments. Its buffers are followed through the nine parts
  of the program: the endpoint lists with their self loops r and c, the edge weights n, the first product x · w1 aggregated
  over the edges with its bias, the positive part, then the same lists and weights computed a second time (they
  depend on the edge list only, so they are the same arrays), and the second product aggregated with its bias. The host's
  dot products are the dense layers, and the bias followed by the maximum with zero is the hidden layer's clipping.
-/
import proofs.«148150_j31774168056026_1_alg».proof.Proof.RHost
import proofs.«148150_j31774168056026_1_alg».proof.Proof.Bridge
import proofs.«148150_j31774168056026_1_alg».proof.Proof.Model

set_option maxRecDepth 16384

noncomputable section

namespace Cert.ReferenceIdeal.Levels

open Cert.ReferenceIdeal Cert.ReferenceIdeal.Gen Cert.ReferenceIdeal.RunP Idealize.ShloMosaic Idealize.ShloMosaic.TcCoe Idealize.SL.Sem Idealize.ShloMosaic.StableHlo
open Cert.Graph Cert.ReferenceIdeal.HostValue

variable (m : (ℓ : Loc nD τ sig) → Buf (Elt Ideal) ℓ) (c : Dev nD)

/-- The contents of a buffer a part does not write: the fold walks over the part without touching it. -/
macro "carried" : tactic =>
  `(tactic| ((try simp only [part1, part2, part3, part4, part5, part6, part7, part8, part9, List.take_succ_cons, List.take_zero, List.drop_succ_cons, List.drop_zero]); after_results_simp))

/-- The buffers after each part, from the launch contents. -/
abbrev A0 : Valuation τ sig (Elt Ideal) := launchContents m c
abbrev A1 : Valuation τ sig (Elt Ideal) := StableHlo.after part1 (A0 m c)
abbrev A2 : Valuation τ sig (Elt Ideal) := StableHlo.after part2 (A1 m c)
abbrev A3 : Valuation τ sig (Elt Ideal) := StableHlo.after part3 (A2 m c)
abbrev A4 : Valuation τ sig (Elt Ideal) := StableHlo.after part4 (A3 m c)
abbrev A5 : Valuation τ sig (Elt Ideal) := StableHlo.after part5 (A4 m c)
abbrev A6 : Valuation τ sig (Elt Ideal) := StableHlo.after part6 (A5 m c)
abbrev A7 : Valuation τ sig (Elt Ideal) := StableHlo.after part7 (A6 m c)
abbrev A8 : Valuation τ sig (Elt Ideal) := StableHlo.after part8 (A7 m c)

/-- The self-looped sources and targets, and the edge weights, of the launch's edge list. -/
abbrev srcs : IVec Cert.KernelIdeal.S850000 32 := withLoops (endpoints0 (m ((c.tc : Thread nD τ).loc main_arg1)))
abbrev tgts : IVec Cert.KernelIdeal.S850000 32 := withLoops (endpoints1 (m ((c.tc : Thread nD τ).loc main_arg1)))
abbrev wts : FVec Ideal Cert.KernelIdeal.S850000 .f32 := edgeWeight (invSqrtDegree (tgts m c)) ones (srcs m c) (tgts m c)

/-! ## After part 1 -/

theorem a1_src : A1 m c (Proc.devRef .tc main_v1) = endpoints0 (m ((c.tc : Thread nD τ).loc main_arg1)) := p1_src (A0 m c)
theorem a1_dst : A1 m c (Proc.devRef .tc main_v3) = endpoints1 (m ((c.tc : Thread nD τ).loc main_arg1)) := p1_dst (A0 m c)
theorem a1_srcs : A1 m c (Proc.devRef .tc main_v5) = srcs m c := p1_sources (A0 m c)
theorem a1_tgts : A1 m c (Proc.devRef .tc main_v6) = tgts m c := p1_targets (A0 m c)
theorem a1_arg (b : Ref sig .tc) (hb : b = main_arg0 ∨ b = main_arg2 ∨ b = main_arg3 ∨ b = main_arg4 ∨ b = main_arg5) :
    A1 m c (Proc.devRef .tc b) = m ((c.tc : Thread nD τ).loc b) := by
  have h : A1 m c (Proc.devRef .tc b) = A0 m c (Proc.devRef .tc b) := by
    show StableHlo.after part1 (A0 m c) (Proc.devRef .tc b) = _
    generalize A0 m c = U
    rcases hb with rfl | rfl | rfl | rfl | rfl <;> carried
  exact h

/-! ## After part 2 -/

theorem a2_pos : A2 m c (Proc.devRef .tc main_v12) = positive (tgts m c) := (p2_positive (A1 m c)).trans (by rw [a1_tgts])
theorem a2_rsqrt : A2 m c (Proc.devRef .tc main_v13) = Host.rsqrt (degree (tgts m c)) := (p2_rsqrt (A1 m c)).trans (by rw [a1_tgts])
theorem a2_zero : A2 m c (Proc.devRef .tc main_cst_2) = (constant S_ .f32 0x00000000#32 : FVec Ideal S_ .f32) := p2_zero (A1 m c)
theorem a2_ones : A2 m c (Proc.devRef .tc main_v7) = ones := p2_ones (A1 m c)
theorem a2_keep (b : Ref sig .tc) (hb : b = main_v1 ∨ b = main_v3 ∨ b = main_v5 ∨ b = main_v6 ∨ b = main_arg0 ∨ b = main_arg2 ∨ b = main_arg3 ∨ b = main_arg4 ∨ b = main_arg5) :
    A2 m c (Proc.devRef .tc b) = A1 m c (Proc.devRef .tc b) := by
  show StableHlo.after part2 (A1 m c) (Proc.devRef .tc b) = _
  generalize A1 m c = U
  rcases hb with rfl | rfl | rfl | rfl | rfl | rfl | rfl | rfl | rfl <;> carried

/-! ## After part 3 -/

theorem a3_inv : A3 m c (Proc.devRef .tc main_v14) = invSqrtDegree (tgts m c) :=
  (p3_choice (A2 m c)).trans (by rw [a2_pos, a2_rsqrt, a2_zero]; rfl)
theorem a3_keep (b : Ref sig .tc) (hb : b = main_v1 ∨ b = main_v3 ∨ b = main_v5 ∨ b = main_v6 ∨ b = main_v7 ∨ b = main_arg0 ∨ b = main_arg2 ∨ b = main_arg3 ∨ b = main_arg4 ∨ b = main_arg5) :
    A3 m c (Proc.devRef .tc b) = A2 m c (Proc.devRef .tc b) := by
  show StableHlo.after part3 (A2 m c) (Proc.devRef .tc b) = _
  generalize A2 m c = U
  rcases hb with rfl | rfl | rfl | rfl | rfl | rfl | rfl | rfl | rfl | rfl <;> carried

theorem a3_srcs : A3 m c (Proc.devRef .tc main_v5) = srcs m c := by rw [a3_keep m c main_v5 (by simp), a2_keep m c main_v5 (by simp), a1_srcs]
theorem a3_tgts : A3 m c (Proc.devRef .tc main_v6) = tgts m c := by rw [a3_keep m c main_v6 (by simp), a2_keep m c main_v6 (by simp), a1_tgts]
theorem a3_ones : A3 m c (Proc.devRef .tc main_v7) = ones := by rw [a3_keep m c main_v7 (by simp), a2_ones]
theorem a3_arg (b : Ref sig .tc) (hb : b = main_arg0 ∨ b = main_arg2 ∨ b = main_arg3 ∨ b = main_arg4 ∨ b = main_arg5) :
    A3 m c (Proc.devRef .tc b) = m ((c.tc : Thread nD τ).loc b) := by
  rw [a3_keep m c b (by rcases hb with h | h | h | h | h <;> simp [h]), a2_keep m c b (by rcases hb with h | h | h | h | h <;> simp [h]), a1_arg m c b hb]
theorem a3_src : A3 m c (Proc.devRef .tc main_v1) = endpoints0 (m ((c.tc : Thread nD τ).loc main_arg1)) := by rw [a3_keep m c main_v1 (by simp), a2_keep m c main_v1 (by simp), a1_src]
theorem a3_dst : A3 m c (Proc.devRef .tc main_v3) = endpoints1 (m ((c.tc : Thread nD τ).loc main_arg1)) := by rw [a3_keep m c main_v3 (by simp), a2_keep m c main_v3 (by simp), a1_dst]

/-! ## After part 4: the first layer with its bias -/

/-- The first layer before its bias: the dense stage aggregated over the edges. -/
abbrev layer1 : FVec Ideal Cert.KernelIdeal.S50000x96 .f32 :=
  aggregate (Spec.dense (m ((c.tc : Thread nD τ).loc main_arg0)) (m ((c.tc : Thread nD τ).loc main_arg2))) (srcs m c) (tgts m c) (wts m c)

theorem a4_layer : A4 m c (Proc.devRef .tc main_v47) = addBias (layer1 m c) (m ((c.tc : Thread nD τ).loc main_arg3)) :=
  (p4_layer (A3 m c)).trans (by
    rw [a3_arg m c main_arg0 (by simp), a3_arg m c main_arg2 (by simp), a3_arg m c main_arg3 (by simp), a3_srcs, a3_tgts, a3_inv, a3_ones,
      Cert.Bridge.dot_is_dense])
theorem a4_keep (b : Ref sig .tc) (hb : b = main_v1 ∨ b = main_v3 ∨ b = main_arg4 ∨ b = main_arg5) :
    A4 m c (Proc.devRef .tc b) = A3 m c (Proc.devRef .tc b) := by
  show StableHlo.after part4 (A3 m c) (Proc.devRef .tc b) = _
  generalize A3 m c = U
  rcases hb with rfl | rfl | rfl | rfl <;> carried

/-! ## After part 5: the hidden layer -/

theorem a5_hidden : A5 m c (Proc.devRef .tc main_v48) = Spec.biasRelu (layer1 m c) (m ((c.tc : Thread nD τ).loc main_arg3)) :=
  (p5_relu (A4 m c)).trans (by rw [a4_layer, Cert.Bridge.relu_addBias])
theorem a5_keep (b : Ref sig .tc) (hb : b = main_v1 ∨ b = main_v3 ∨ b = main_arg4 ∨ b = main_arg5) :
    A5 m c (Proc.devRef .tc b) = A4 m c (Proc.devRef .tc b) := by
  show StableHlo.after part5 (A4 m c) (Proc.devRef .tc b) = _
  generalize A4 m c = U
  rcases hb with rfl | rfl | rfl | rfl <;> carried

/-! ## After part 6: the lists again -/

theorem a6_srcs : A6 m c (Proc.devRef .tc main_v50) = srcs m c :=
  (p6_sources (A5 m c)).trans (by rw [a5_keep m c main_v1 (by simp), a4_keep m c main_v1 (by simp), a3_src])
theorem a6_tgts : A6 m c (Proc.devRef .tc main_v51) = tgts m c :=
  (p6_targets (A5 m c)).trans (by rw [a5_keep m c main_v3 (by simp), a4_keep m c main_v3 (by simp), a3_dst])
theorem a6_keep (b : Ref sig .tc) (hb : b = main_v48 ∨ b = main_arg4 ∨ b = main_arg5) :
    A6 m c (Proc.devRef .tc b) = A5 m c (Proc.devRef .tc b) := by
  show StableHlo.after part6 (A5 m c) (Proc.devRef .tc b) = _
  generalize A5 m c = U
  rcases hb with rfl | rfl | rfl <;> carried

/-! ## After part 7: the degrees again -/

theorem a7_pos : A7 m c (Proc.devRef .tc main_v57) = positive (tgts m c) := (p7_positive (A6 m c)).trans (by rw [a6_tgts])
theorem a7_rsqrt : A7 m c (Proc.devRef .tc main_v58) = Host.rsqrt (degree (tgts m c)) := (p7_rsqrt (A6 m c)).trans (by rw [a6_tgts])
theorem a7_zero : A7 m c (Proc.devRef .tc main_cst_12) = (constant S_ .f32 0x00000000#32 : FVec Ideal S_ .f32) := p7_zero (A6 m c)
theorem a7_ones : A7 m c (Proc.devRef .tc main_v52) = ones := p7_ones (A6 m c)
theorem a7_keep (b : Ref sig .tc) (hb : b = main_v48 ∨ b = main_v50 ∨ b = main_v51 ∨ b = main_arg4 ∨ b = main_arg5) :
    A7 m c (Proc.devRef .tc b) = A6 m c (Proc.devRef .tc b) := by
  show StableHlo.after part7 (A6 m c) (Proc.devRef .tc b) = _
  generalize A6 m c = U
  rcases hb with rfl | rfl | rfl | rfl | rfl <;> carried

/-! ## After part 8: the choice again -/

theorem a8_inv : A8 m c (Proc.devRef .tc main_v59) = invSqrtDegree (tgts m c) :=
  (p8_choice (A7 m c)).trans (by rw [a7_pos, a7_rsqrt, a7_zero]; rfl)
theorem a8_keep (b : Ref sig .tc) (hb : b = main_v48 ∨ b = main_v50 ∨ b = main_v51 ∨ b = main_v52 ∨ b = main_arg4 ∨ b = main_arg5) :
    A8 m c (Proc.devRef .tc b) = A7 m c (Proc.devRef .tc b) := by
  show StableHlo.after part8 (A7 m c) (Proc.devRef .tc b) = _
  generalize A7 m c = U
  rcases hb with rfl | rfl | rfl | rfl | rfl | rfl <;> carried

theorem a8_hidden : A8 m c (Proc.devRef .tc main_v48) = Spec.biasRelu (layer1 m c) (m ((c.tc : Thread nD τ).loc main_arg3)) := by
  rw [a8_keep m c main_v48 (by simp), a7_keep m c main_v48 (by simp), a6_keep m c main_v48 (by simp), a5_hidden]
theorem a8_srcs : A8 m c (Proc.devRef .tc main_v50) = srcs m c := by rw [a8_keep m c main_v50 (by simp), a7_keep m c main_v50 (by simp), a6_srcs]
theorem a8_tgts : A8 m c (Proc.devRef .tc main_v51) = tgts m c := by rw [a8_keep m c main_v51 (by simp), a7_keep m c main_v51 (by simp), a6_tgts]
theorem a8_ones : A8 m c (Proc.devRef .tc main_v52) = ones := by rw [a8_keep m c main_v52 (by simp), a7_ones]
theorem a8_arg (b : Ref sig .tc) (hb : b = main_arg4 ∨ b = main_arg5) : A8 m c (Proc.devRef .tc b) = m ((c.tc : Thread nD τ).loc b) := by
  rw [a8_keep m c b (by rcases hb with h | h <;> simp [h]), a7_keep m c b (by rcases hb with h | h <;> simp [h]),
    a6_keep m c b (by rcases hb with h | h <;> simp [h]), a5_keep m c b (by rcases hb with h | h <;> simp [h]),
    a4_keep m c b (by rcases hb with h | h <;> simp [h]), a3_arg m c b (by rcases hb with h | h <;> simp [h])]

/-! ## The arguments, and the result -/

set_option maxHeartbeats 16000000 in
/-- No operation writes an argument: it ends as launched. -/
theorem arg_kept (b : Ref sig .tc) (hb : b = main_arg0 ∨ b = main_arg1 ∨ b = main_arg2 ∨ b = main_arg3 ∨ b = main_arg4 ∨ b = main_arg5) :
    StableHlo.after (ops (F := Ideal)) (launchContents m c) (Proc.devRef .tc b) = m ((c.tc : Thread nD τ).loc b) := by
  have h : StableHlo.after (ops (F := Ideal)) (launchContents m c) (Proc.devRef .tc b) = launchContents m c (Proc.devRef .tc b) := by
    generalize launchContents m c = U
    rcases hb with rfl | rfl | rfl | rfl | rfl | rfl <;> after_results_simp
  exact h

/-- The result buffer ends at the network's output of the six arguments. -/
theorem result_eq : StableHlo.after (ops (F := Ideal)) (launchContents m c) (Proc.devRef .tc main_v92)
    = Cert.Model.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [parts]
  refine (p9_layer (A8 m c)).trans ?_
  rw [a8_hidden, a8_srcs, a8_tgts, a8_ones, a8_inv, a8_arg m c main_arg4 (by simp), a8_arg m c main_arg5 (by simp), Cert.Bridge.dot_is_dense]
  rfl

end Cert.ReferenceIdeal.Levels

end
-- ==== Proof.lean ====
/-
  A two-layer graph convolution on 50000 nodes and 800000 edges: the kernel program computes each layer's dense product
  x · w in a row-tiled kernel (ten blocks of 5000 rows, the second with the first layer's bias and clipping at zero fused
  in front of the product) and leaves the gathers and scatter-adds over the edges to the host; the reference computes
  everything on the host, products included, and builds the edge weights once per layer. On the extended reals both
  compute one function of the six arguments, `Cert.Model.out`: a block-wise product is the whole product row by row,
  the tile's narrower float format is the identity, and the edge weights depend on the edge list alone. No law that
  needs finite entries is used, so the precondition is never opened.
  The three programs terminate with their arguments unchanged: the two kernel programs by their frames, the reference
  by the fold of its operations, none of which writes an argument. The idealization rewrote no operation.
-/
import proofs.«148150_j31774168056026_1_alg».proof.Defs
import proofs.«148150_j31774168056026_1_alg».proof.Proof.Gen.Kernel
import proofs.«148150_j31774168056026_1_alg».proof.Proof.Gen.Kernel.Skeleton
import proofs.«148150_j31774168056026_1_alg».proof.Proof.Gen.Kernel.Launch
import proofs.«148150_j31774168056026_1_alg».proof.Proof.Gen.Kernel.Points
import proofs.«148150_j31774168056026_1_alg».proof.Proof.Gen.Kernel.Frame
import proofs.«148150_j31774168056026_1_alg».proof.Proof.Gen.KernelIdeal
import proofs.«148150_j31774168056026_1_alg».proof.Proof.Gen.KernelIdeal.Skeleton
import proofs.«148150_j31774168056026_1_alg».proof.Proof.Gen.KernelIdeal.Launch
import proofs.«148150_j31774168056026_1_alg».proof.Proof.Gen.KernelIdeal.Points
import proofs.«148150_j31774168056026_1_alg».proof.Proof.Gen.KernelIdeal.Frame
import proofs.«148150_j31774168056026_1_alg».proof.Proof.Gen.ReferenceIdeal
import proofs.«148150_j31774168056026_1_alg».proof.Proof.Gen.Pre_finite_inputs
import proofs.«148150_j31774168056026_1_alg».proof.Proof.KRun
import proofs.«148150_j31774168056026_1_alg».proof.Proof.KValue
import proofs.«148150_j31774168056026_1_alg».proof.Proof.RefRun
import proofs.«148150_j31774168056026_1_alg».proof.Proof.RValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference ends with every buffer at the fold of its operations; an argument is written by none of them. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.Levels.arg_kept m c _ (by simp)),
     (h c Cert.ReferenceIdeal.main_arg1).trans (Cert.ReferenceIdeal.Levels.arg_kept m c _ (by simp)),
     (h c Cert.ReferenceIdeal.main_arg2).trans (Cert.ReferenceIdeal.Levels.arg_kept m c _ (by simp)),
     (h c Cert.ReferenceIdeal.main_arg3).trans (Cert.ReferenceIdeal.Levels.arg_kept m c _ (by simp)),
     (h c Cert.ReferenceIdeal.main_arg4).trans (Cert.ReferenceIdeal.Levels.arg_kept m c _ (by simp)),
     (h c Cert.ReferenceIdeal.main_arg5).trans (Cert.ReferenceIdeal.Levels.arg_kept m c _ (by simp))⟩)
    (Cert.ReferenceIdeal.RunP.run_fold (F := Ideal) m ρ)

/-- Both idealized programs end with the network's output of the arguments they were launched with; launched with the
    same arguments they end with the same result. -/
theorem algebraic : Cert.algebraic_KernelIdeal_ReferenceIdeal := by
  intro m ρ m' ρ' _ hagree
  refine ⟨fun c => Cert.Model.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Levels.result_eq m ρ c), (h c).2⟩)
      (Cert.KernelIdeal.Run.run_result (F := Ideal) m ρ)
  · refine (θ_run Cert.ReferenceIdeal.defs _ _).mono (fun r h c =>
      ⟨(h c Cert.ReferenceIdeal.main_v92).trans ((Cert.ReferenceIdeal.Levels.result_eq m' c).trans ?_),
       (h c Cert.ReferenceIdeal.main_arg0).trans (Cert.ReferenceIdeal.Levels.arg_kept m' c _ (by simp)),
       (h c Cert.ReferenceIdeal.main_arg1).trans (Cert.ReferenceIdeal.Levels.arg_kept m' c _ (by simp)),
       (h c Cert.ReferenceIdeal.main_arg2).trans (Cert.ReferenceIdeal.Levels.arg_kept m' c _ (by simp)),
       (h c Cert.ReferenceIdeal.main_arg3).trans (Cert.ReferenceIdeal.Levels.arg_kept m' c _ (by simp)),
       (h c Cert.ReferenceIdeal.main_arg4).trans (Cert.ReferenceIdeal.Levels.arg_kept m' c _ (by simp)),
       (h c Cert.ReferenceIdeal.main_arg5).trans (Cert.ReferenceIdeal.Levels.arg_kept m' c _ (by simp))⟩)
      (Cert.ReferenceIdeal.RunP.run_fold (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
